-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x16 : Shape := ⟨2, ![64, 16]⟩
abbrev S16 : Shape := ⟨1, ![16]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S64x1 .f32) (main_arg6 : FVec F S1 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S2097152x32 .f32) (main_arg1 : FVec F S32x64 .f32) (main_arg2 : FVec F S64 .f32) (main_arg3 : FVec F S64x64 .f32) (main_arg4 : FVec F S64 .f32) (main_arg5 : FVec F S64x1 .f32) (main_arg6 : FVec F S1 .f32) (main_arg7 : FVec F S64x16 .f32) (main_arg8 : FVec F S16 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x16 : Shape := ⟨2, ![64, 16]⟩
abbrev S16 : Shape := ⟨1, ![16]⟩
abbrev S1x64 : Shape := ⟨2, ![1, 64]⟩
abbrev S64x17 : Shape := ⟨2, ![64, 17]⟩
abbrev S17 : Shape := ⟨1, ![17]⟩
abbrev S1x17 : Shape := ⟨2, ![1, 17]⟩
abbrev S2097152x17 : Shape := ⟨2, ![2097152, 17]⟩
abbrev S8192x32 : Shape := ⟨2, ![8192, 32]⟩
abbrev S8192x17 : Shape := ⟨2, ![8192, 17]⟩
abbrev S8192x64 : Shape := ⟨2, ![8192, 64]⟩
abbrev S2097152x1 : Shape := ⟨2, ![2097152, 1]⟩
abbrev S2097152 : Shape := ⟨1, ![2097152]⟩
abbrev S2097152x16 : Shape := ⟨2, ![2097152, 16]⟩

abbrev nBuf : Space → Nat
  | .hbm => 21
  | .vmem => 10
  | .smem => 0
  | _ => 0

abbrev bufTy : (tb : Table) → Fin (tcTables nBuf tb) → BufTy
  | .hbm, ⟨0, _⟩ => ⟨S2097152x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x16, .f32⟩
  | .hbm, ⟨8, _⟩ => ⟨S16, .f32⟩
  | .hbm, ⟨9, _⟩ => ⟨S1x64, .f32⟩
  | .hbm, ⟨10, _⟩ => ⟨S1x64, .f32⟩
  | .hbm, ⟨11, _⟩ => ⟨S64x17, .f32⟩
  | .hbm, ⟨12, _⟩ => ⟨S17, .f32⟩
  | .hbm, ⟨13, _⟩ => ⟨S1x17, .f32⟩
  | .hbm, ⟨14, _⟩ => ⟨S32x64, .bf16⟩
  | .hbm, ⟨15, _⟩ => ⟨S64x64, .bf16⟩
  | .hbm, ⟨16, _⟩ => ⟨S64x17, .bf16⟩
  | .hbm, ⟨17, _⟩ => ⟨S2097152x17, .f32⟩
  | .hbm, ⟨18, _⟩ => ⟨S2097152x1, .f32⟩
  | .hbm, ⟨19, _⟩ => ⟨S2097152, .f32⟩
  | .hbm, ⟨20, _⟩ => ⟨S2097152x16, .f32⟩
  | .local _ .vmem, ⟨0, _⟩ => ⟨S8192x32, .f32⟩
  | .local _ .vmem, ⟨1, _⟩ => ⟨S8192x32, .f32⟩
  | .local _ .vmem, ⟨2, _⟩ => ⟨S32x64, .bf16⟩
  | .local _ .vmem, ⟨3, _⟩ => ⟨S1x64, .f32⟩
  | .local _ .vmem, ⟨4, _⟩ => ⟨S64x64, .bf16⟩
  | .local _ .vmem, ⟨5, _⟩ => ⟨S1x64, .f32⟩
  | .local _ .vmem, ⟨6, _⟩ => ⟨S64x17, .bf16⟩
  | .local _ .vmem, ⟨7, _⟩ => ⟨S1x17, .f32⟩
  | .local _ .vmem, ⟨8, _⟩ => ⟨S8192x17, .f32⟩
  | .local _ .vmem, ⟨9, _⟩ => ⟨S8192x17, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x17 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x17 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x17 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  concatenates_S64x1_S64x16_S64x17_d1 : Shape.Concatenates [S64x1, S64x16] S64x17 1
  concatenates_S1_S16_S17_d0 : Shape.Concatenates [S1, S16] S17 0
  shapeCasts_S17_S1x17 : S17.ShapeCasts S1x17
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x17_S64x17_0_0 : ∀ a, (![0, 0] : Fin 2 → Nat) a + S64x17.size a ≤ S64x17.size a
  h_S64x17 : 0 < S64x17.numel
  shapeCasts_S64x17_S64x17 : S64x17.ShapeCasts S64x17
  inb_S1x17_S1x17_0_0 : ∀ a, (![0, 0] : Fin 2 → Nat) a + S1x17.size a ≤ S1x17.size a
  h_S1x17 : 0 < S1x17.numel
  shapeCasts_S1x17_S1x17 : S1x17.ShapeCasts S1x17
  broadcasts_S1x17_S8192x17 : S1x17.Broadcasts S8192x17
  iota_S8192x17_d1_w32 : S8192x17.Iotas .tc 32 [1]
  inb_S8192x17_S8192x17_0_0 : ∀ a, (![0, 0] : Fin 2 → Nat) a + S8192x17.size a ≤ S8192x17.size a
  h_S8192x17 : 0 < S8192x17.numel
  slices_S2097152x17_S2097152x1_0_0 : S2097152x17.Slices ![0, 0] S2097152x1
  shapeCasts_S2097152x1_S2097152 : S2097152x1.ShapeCasts S2097152
  slices_S2097152x17_S2097152x16_0_1 : S2097152x17.Slices ![0, 1] S2097152x16
  dot_S8192x32_S32x64_S8192x64_1_0_0_1_n_n_wf : DotDims.WF S8192x32 S32x64 S8192x64 [1] [0] [0] [1] [] []
  dot_S8192x64_S64x64_S8192x64_1_0_0_1_n_n_wf : DotDims.WF S8192x64 S64x64 S8192x64 [1] [0] [0] [1] [] []
  dot_S8192x64_S64x17_S8192x17_1_0_0_1_n_n_wf : DotDims.WF S8192x64 S64x17 S8192x17 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S2097152x32.size a
  hwx0_0 : ∀ i : grid0.Coords, EltTy.bits .f32 = 32 ∨ (Rect.block (s := S2097152x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x17.size a ≤ S64x17.size a
  hwx0_5 : ∀ i : grid0.Coords, EltTy.bits .bf16 = 32 ∨ (Rect.block (s := S64x17) S64x17.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x17.size a ≤ S1x17.size a
  hwx0_6 : ∀ i : grid0.Coords, EltTy.bits .f32 = 32 ∨ (Rect.block (s := S1x17) S1x17.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x17.size a ≤ S2097152x17.size a
  hwx0_7 : ∀ i : grid0.Coords, EltTy.bits .f32 = 32 ∨ (Rect.block (s := S2097152x17) S8192x17.size (cc0_transform_7 i) (hinb0_7 i)).WholeWords (EltTy.packing .f32)

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x17_S8192x17_1_0_0_1_n_n : DotDims S8192x64 S64x17 S8192x17 where
  lhsContracting := [1]
  rhsContracting := [0]
  lhsNonContracting := [0]
  rhsNonContracting := [1]
  lhsBatch := []
  rhsBatch := []
  wf := dot_S8192x64_S64x17_S8192x17_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x17.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x17.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S8192x17.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x16 : Shape := ⟨2, ![64, 16]⟩
abbrev S16 : Shape := ⟨1, ![16]⟩
abbrev S2097152x64 : Shape := ⟨2, ![2097152, 64]⟩
abbrev S1x64 : Shape := ⟨2, ![1, 64]⟩
abbrev S_ : Shape := ⟨0, ![]⟩
abbrev S2097152x1 : Shape := ⟨2, ![2097152, 1]⟩
abbrev S1x1 : Shape := ⟨2, ![1, 1]⟩
abbrev S2097152 : Shape := ⟨1, ![2097152]⟩
abbrev S2097152x16 : Shape := ⟨2, ![2097152, 16]⟩
abbrev S1x16 : Shape := ⟨2, ![1, 16]⟩

abbrev nBuf : Space → Nat
  | .hbm => 49
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x16, .f32⟩
  | .hbm, ⟨8, _⟩ => ⟨S16, .f32⟩
  | .hbm, ⟨9, _⟩ => ⟨S2097152x64, .f32⟩
  | .hbm, ⟨10, _⟩ => ⟨S1x64, .f32⟩
  | .hbm, ⟨11, _⟩ => ⟨S2097152x64, .f32⟩
  | .hbm, ⟨12, _⟩ => ⟨S2097152x64, .f32⟩
  | .hbm, ⟨13, _⟩ => ⟨S_, .f32⟩
  | .hbm, ⟨14, _⟩ => ⟨S2097152x64, .f32⟩
  | .hbm, ⟨15, _⟩ => ⟨S2097152x64, .f32⟩
  | .hbm, ⟨16, _⟩ => ⟨S2097152x64, .f32⟩
  | .hbm, ⟨17, _⟩ => ⟨S1x64, .f32⟩
  | .hbm, ⟨18, _⟩ => ⟨S2097152x64, .f32⟩
  | .hbm, ⟨19, _⟩ => ⟨S2097152x64, .f32⟩
  | .hbm, ⟨20, _⟩ => ⟨S_, .f32⟩
  | .hbm, ⟨21, _⟩ => ⟨S2097152x64, .f32⟩
  | .hbm, ⟨22, _⟩ => ⟨S2097152x64, .f32⟩
  | .hbm, ⟨23, _⟩ => ⟨S2097152x1, .f32⟩
  | .hbm, ⟨24, _⟩ => ⟨S1x1, .f32⟩
  | .hbm, ⟨25, _⟩ => ⟨S2097152x1, .f32⟩
  | .hbm, ⟨26, _⟩ => ⟨S2097152x1, .f32⟩
  | .hbm, ⟨27, _⟩ => ⟨S2097152, .f32⟩
  | .hbm, ⟨28, _⟩ => ⟨S_, .f32⟩
  | .hbm, ⟨29, _⟩ => ⟨S2097152, .f32⟩
  | .hbm, ⟨30, _⟩ => ⟨S2097152, .f32⟩
  | .hbm, ⟨31, _⟩ => ⟨S_, .f32⟩
  | .hbm, ⟨32, _⟩ => ⟨S2097152, .f32⟩
  | .hbm, ⟨33, _⟩ => ⟨S2097152, .f32⟩
  | .hbm, ⟨34, _⟩ => ⟨S2097152, .f32⟩
  | .hbm, ⟨35, _⟩ => ⟨S2097152, .f32⟩
  | .hbm, ⟨36, _⟩ => ⟨S2097152, .i1⟩
  | .hbm, ⟨37, _⟩ => ⟨S2097152, .f32⟩
  | .hbm, ⟨38, _⟩ => ⟨S2097152, .f32⟩
  | .hbm, ⟨39, _⟩ => ⟨S2097152, .f32⟩
  | .hbm, ⟨40, _⟩ => ⟨S2097152, .f32⟩
  | .hbm, ⟨41, _⟩ => ⟨S2097152, .f32⟩
  | .hbm, ⟨42, _⟩ => ⟨S2097152, .f32⟩
  | .hbm, ⟨43, _⟩ => ⟨S2097152, .f32⟩
  | .hbm, ⟨44, _⟩ => ⟨S2097152, .f32⟩
  | .hbm, ⟨45, _⟩ => ⟨S2097152x16, .f32⟩
  | .hbm, ⟨46, _⟩ => ⟨S1x16, .f32⟩
  | .hbm, ⟨47, _⟩ => ⟨S2097152x16, .f32⟩
  | .hbm, ⟨48, _⟩ => ⟨S2097152x16, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  shapeCasts_S2097152x1_S2097152 : S2097152x1.ShapeCasts S2097152
  bcast_S_S2097152 : S_.BroadcastsInDim S2097152 (![] : Fin 0 → Fin S2097152.rank)
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x1_S2097152x1_1_0_0_1_n_n_wf : DotDims.WF S2097152x64 S64x1 S2097152x1 [1] [0] [0] [1] [] []
  dot_S2097152x64_S64x16_S2097152x16_1_0_0_1_n_n_wf : DotDims.WF S2097152x64 S64x16 S2097152x16 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x1_S2097152x1_1_0_0_1_n_n : DotDims S2097152x64 S64x1 S2097152x1 where
  lhsContracting := [1]
  rhsContracting := [0]
  lhsNonContracting := [0]
  rhsNonContracting := [1]
  lhsBatch := []
  rhsBatch := []
  wf := dot_S2097152x64_S64x1_S2097152x1_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf

class Facts : Prop extends Facts₀ where

variable [Facts]
-- ==== Proof.Spec.lean ====
/-
  The network both programs compute, as functions on the extended reals.

  A row `x` of 32 features goes through two dense layers of width 64, each followed by the rectifier
  `max · 0`; from the resulting 64 activations `h` two heads are read:
    * the density `softplus (h · Ws + bs − 1)`, one number per row, and
    * the colour features `h · Wr + br`, sixteen numbers per row.
  `softplus z` is written the way both programs print it: `max z 0 + log (1 + exp (−|z − 0|))`, guarded by
  the test `z − 0 ≠ z − 0`, which no extended real passes.

  Everything is stated row by row: an entry of either result depends on ONE row of the feature matrix and
  on the weights, so a block of rows of the result is the same function of the same block of the features.
  The zero and the one are kept as the binary32 words the programs print; they are the same words on both
  sides and are never evaluated, except where the zero must be the additive zero.
-/
import Idealize.ShloMosaic.PureOps.Ideal
import Idealize.ShloMosaic.Lib.ValueIdx

noncomputable section

open scoped BigOperators

namespace Cert.Mlp

open Idealize.ShloMosaic Idealize.ShloMosaic.ValueIdx

/-- The word `0.0`. -/
abbrev zero : EReal := Ideal.ofBits .f32 0x00000000#32
/-- The word `1.0`. -/
abbrev one : EReal := Ideal.ofBits .f32 0x3F800000#32

/-- The rectifier. -/
def relu (z : EReal) : EReal := max z zero

/-- Output `c` of a dense layer on the row `x`: `∑ₖ x k · W (k, c) + b c`. -/
def dense {K C : Nat} (x : Fin K → EReal) (W : FVec Ideal ⟨2, ![K, C]⟩ .f32) (b : FVec Ideal ⟨1, ![C]⟩ .f32)
    (c : Fin C) : EReal :=
  (∑ k : Fin K, x k * W (ix2 k c)) + b (ix1 c)

/-- The 64 activations after the two rectified layers, from a row of 32 features. -/
def hidden (x : Fin 32 → EReal) (W0 : FVec Ideal ⟨2, ![32, 64]⟩ .f32) (b0 : FVec Ideal ⟨1, ![64]⟩ .f32)
    (W1 : FVec Ideal ⟨2, ![64, 64]⟩ .f32) (b1 : FVec Ideal ⟨1, ![64]⟩ .f32) : Fin 64 → EReal :=
  fun c => relu (dense (fun k => relu (dense x W0 b0 k)) W1 b1 c)

/-- `softplus` as both programs print it (jax's `logaddexp z 0`): the guard compares `z − 0` with itself. -/
def softplus (z : EReal) : EReal :=
  Scalar.select (Ideal.cmp .une (z - zero) (z - zero)) (z + zero)
    (max z zero + Ideal.log1p (Ideal.exp (-(max (z - zero) (-(z - zero))))))

/-- Row `r` of the feature matrix. -/
abbrev row {n K : Nat} (X : FVec Ideal ⟨2, ![n, K]⟩ .f32) (r : Fin n) : Fin K → EReal := fun k => X (ix2 r k)

/-- The density head: one number per row. -/
def sigma (feat : FVec Ideal ⟨2, ![2097152, 32]⟩ .f32) (W0 : FVec Ideal ⟨2, ![32, 64]⟩ .f32) (b0 : FVec Ideal ⟨1, ![64]⟩ .f32)
    (W1 : FVec Ideal ⟨2, ![64, 64]⟩ .f32) (b1 : FVec Ideal ⟨1, ![64]⟩ .f32)
    (Ws : FVec Ideal ⟨2, ![64, 1]⟩ .f32) (bs : FVec Ideal ⟨1, ![1]⟩ .f32) : FVec Ideal ⟨1, ![2097152]⟩ .f32 :=
  fun i => softplus (dense (hidden (row feat (i 0)) W0 b0 W1 b1) Ws bs 0 - one)

/-- The colour head: sixteen numbers per row. -/
def rgb (feat : FVec Ideal ⟨2, ![2097152, 32]⟩ .f32) (W0 : FVec Ideal ⟨2, ![32, 64]⟩ .f32) (b0 : FVec Ideal ⟨1, ![64]⟩ .f32)
    (W1 : FVec Ideal ⟨2, ![64, 64]⟩ .f32) (b1 : FVec Ideal ⟨1, ![64]⟩ .f32)
    (Wr : FVec Ideal ⟨2, ![64, 16]⟩ .f32) (br : FVec Ideal ⟨1, ![16]⟩ .f32) : FVec Ideal ⟨2, ![2097152, 16]⟩ .f32 :=
  fun i => dense (hidden (row feat (i 0)) W0 b0 W1 b1) Wr br (i 1)

end Cert.Mlp

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibDenseBlock.lean ====
/-
  A dense layer on the matrix unit, read at an entry.

  A block `A` of `M` rows and `K` columns times a `K × C` matrix `W`, accumulated from the zero word, plus a bias
  held as one row `[1, C]` and spread over the `M` rows, read at `(p, c)`, is

      ∑ₖ A (p, k) · W (k, c) + b (0, c)

  on the extended reals — for every `M`, `K`, `C`, any operand formats, and whatever the shape casts of the
  matrix and of the bias row to their own shapes (which a kernel's loads of whole buffers print). The dimension
  numbers are those of a plain product, given as an equation so that a printed record can be passed with `rfl`.
-/
import proofs.«110163_j2439541424397_2_alg».proof.Proof.LibPlainDot
import Idealize.ShloMosaic.Lib.Pipeline.Value
import Idealize.ShloMosaic.Lib.ValueLayout

noncomputable section

open scoped BigOperators

namespace Cert.Lib.DenseBlock

open Idealize.ShloMosaic Idealize.ShloMosaic.ValueIdx

/-- A block times a matrix from the zero accumulator plus a spread bias row, at an entry. -/
theorem denseBlock_apply {M K C : Nat} {φ₁ φ₂ : FTy} (d : DotDims ⟨2, ![M, K]⟩ ⟨2, ![K, C]⟩ ⟨2, ![M, C]⟩)
    (hd : d = DotDims.plain M K C) (prec : Option ContractPrecision)
    (A : FVec Ideal ⟨2, ![M, K]⟩ φ₁) (W : FVec Ideal ⟨2, ![K, C]⟩ φ₂) (b : FVec Ideal ⟨2, ![1, C]⟩ .f32)
    (hW : (⟨2, ![K, C]⟩ : Shape).ShapeCasts ⟨2, ![K, C]⟩) (hb : (⟨2, ![1, C]⟩ : Shape).ShapeCasts ⟨2, ![1, C]⟩)
    (hbb : (⟨2, ![1, C]⟩ : Shape).Broadcasts ⟨2, ![M, C]⟩) (p : Fin M) (c : Fin C) :
    addf (matmul d prec A (shapeCast ⟨2, ![K, C]⟩ W hW) (constant ⟨2, ![M, C]⟩ .f32 0x00000000#32))
        (broadcastTo ⟨2, ![M, C]⟩ (shapeCast ⟨2, ![1, C]⟩ b hb) hbb) (ix2 p c)
      = (∑ k : Fin K, A (ix2 p k) * W (ix2 k c)) + b (ix2 (0 : Fin 1) c) := by
  subst hd
  rw [addf_apply, shapeCast_self, shapeCast_self, broadcastTo_1b_ab_apply]
  exact congrArg (· + b (ix2 (0 : Fin 1) c)) (Cert.Lib.PlainDot.matmul_plain_zero_apply prec A W p c)

end Cert.Lib.DenseBlock

end
-- ==== Proof.Fused.lean ====
/-
  The kernel's fused head.

  The kernel multiplies the activations by ONE matrix of 17 columns, the density weights in column 0 and the
  colour weights in columns 1–16, adds one bias row of 17 entries, and applies the shifted `softplus` in
  column 0 only. `fused` is that row of 17 numbers as a function of a feature row.
-/
import proofs.«110163_j2439541424397_2_alg».proof.Proof.Spec
import proofs.«110163_j2439541424397_2_alg».proof.Proof.LibDenseBlock

noncomputable section

open scoped BigOperators

namespace Cert.Mlp

open Idealize.ShloMosaic Idealize.ShloMosaic.ValueIdx

/-- A bias held as a row `[1, C]`, as the vector `[C]` it spreads. -/
abbrev ofRow {C : Nat} (b : FVec Ideal ⟨2, ![1, C]⟩ .f32) : FVec Ideal ⟨1, ![C]⟩ .f32 := fun i => b (ix2 (0 : Fin 1) (i 0))

/-- The 17 numbers the kernel writes for a feature row: column 0 through the shifted `softplus`, the others as they are. -/
def fused (x : Fin 32 → EReal) (W0 : FVec Ideal ⟨2, ![32, 64]⟩ .f32) (b0 : FVec Ideal ⟨1, ![64]⟩ .f32)
    (W1 : FVec Ideal ⟨2, ![64, 64]⟩ .f32) (b1 : FVec Ideal ⟨1, ![64]⟩ .f32)
    (Wh : FVec Ideal ⟨2, ![64, 17]⟩ .f32) (bh : FVec Ideal ⟨1, ![17]⟩ .f32) (c : Fin 17) : EReal :=
  if c.val = 0 then softplus (dense (hidden x W0 b0 W1 b1) Wh bh c - one) else dense (hidden x W0 b0 W1 b1) Wh bh c

end Cert.Mlp

end
-- ==== Proof.BodyValue.lean ====
/-
  The kernel body's result at an entry.

  From a block of 8192 feature rows, the two weight matrices, the fused head matrix and the three bias rows,
  the body leaves in its output block, at row `p` and column `c`, the number `fused` of feature row `p`:
  three products on the matrix unit from the zero accumulator, each plus its bias row; the rectifier after the
  first two; in column 0 (the lane-index test) the shifted `softplus`. A change of float format is the
  identity on the extended reals, `0 − a = −a`, and the two spellings of the guard `a ≠ a` are one test.
-/
import proofs.«110163_j2439541424397_2_alg».proof.Proof.Gen.KernelIdeal.Frame
import proofs.«110163_j2439541424397_2_alg».proof.Proof.Fused

noncomputable section

open scoped BigOperators

namespace Cert.KernelIdeal.BodyValue

open Cert.KernelIdeal Cert.KernelIdeal.Gen Idealize.ShloMosaic Idealize.ShloMosaic.ValueIdx Cert.Mlp Cert.Lib.DenseBlock

variable (x0 : Vec Ideal S8192x32 .f32) (x1 : Vec Ideal S32x64 .bf16) (x2 : Vec Ideal S1x64 .f32)
  (x3 : Vec Ideal S64x64 .bf16) (x4 : Vec Ideal S1x64 .f32) (x5 : Vec Ideal S64x17 .bf16) (x6 : Vec Ideal S1x17 .f32)

/-- The head's pre-activation at `(p, c)`: the three layers of feature row `p`. -/
theorem pay2_apply (p : Fin 8192) (c : Fin 17) :
    k0_pay2 (F := Ideal) x0 x1 x2 x3 x4 x5 x6 (ix2 p c)
      = dense (hidden (row x0 p) x1 (ofRow x2) x3 (ofRow x4)) x5 (ofRow x6) c := by
  unfold k0_pay2
  simp only [denseBlock_apply dot_S8192x64_S64x17_S8192x17_1_0_0_1_n_n rfl none,
    denseBlock_apply dot_S8192x64_S64x64_S8192x64_1_0_0_1_n_n rfl none,
    denseBlock_apply dot_S8192x32_S32x64_S8192x64_1_0_0_1_n_n rfl none,
    truncf_apply, maximumf_apply, broadcast_apply]
  rfl

/-- The offsets of every access of the body: the block's origin. -/
theorem origin : (![0, 0] : Fin 2 → Nat) = fun _ => 0 := funext fun a => by fin_cases a <;> rfl

/-- Subtracting from the zero word negates. -/
theorem zero_sub_eq (a : EReal) : zero - a = -a := by
  rw [show zero = 0 from Ideal.ofBits_zero_f32, zero_sub]

/-- `softplus` of the shifted pre-activation, in the body's spelling: `0 − |·|` under the exponential and the
    ordered form of the guard. -/
def bodySoft (y : EReal) : EReal :=
  Scalar.select (Ideal.cmp .one (y - one - zero) (y - one - zero)) (y - one + zero)
    (max (y - one) zero + Ideal.log1p (Ideal.exp (zero - max (y - one - zero) (-(y - one - zero)))))

theorem bodySoft_eq (y : EReal) : bodySoft y = softplus (y - one) := by
  unfold bodySoft softplus
  rw [zero_sub_eq]
  rfl

/-- The lane-index test singles out column 0. -/
theorem lane0 : ∀ c : Fin 17, IntOp.cmpi .eq (BitVec.ofNat 32 c.val) 0#32 = if c.val = 0 then 1#1 else 0#1 := by decide

theorem pay3_apply (p : Fin 8192) (c : Fin 17) : k0_pay3 (ix2 p c) = if c.val = 0 then 1#1 else 0#1 := by
  unfold k0_pay3
  show IntOp.cmpi .eq (iota .tc S8192x17 32 [1] iota_S8192x17_d1_w32 (ix2 p c)) 0#32 = _
  rw [iota_single_apply]
  exact lane0 c

/-- What the body stores, at row `p` and column `c`: `fused` of feature row `p`. -/
theorem out_apply (p : Fin 8192) (c : Fin 17) :
    out0_7 (F := Ideal) x0 x1 x2 x3 x4 x5 x6 (ix2 p c)
      = fused (row x0 p) x1 (ofRow x2) x3 (ofRow x4) x5 (ofRow x6) c := by
  unfold out0_7
  rw [View.canon_unit_zero origin]
  simp only [View.ld_unit_zero (S := S8192x32) origin, View.ld_unit_zero (S := S32x64) origin,
    View.ld_unit_zero (S := S1x64) origin, View.ld_unit_zero (S := S64x64) origin,
    View.ld_unit_zero (S := S64x17) origin, View.ld_unit_zero (S := S1x17) origin]
  unfold k0_pay1 k0_pay5 k0_pay4 k0_pay6
  show Scalar.select (k0_pay3 (ix2 p c)) (bodySoft (k0_pay2 (F := Ideal) x0 x1 x2 x3 x4 x5 x6 (ix2 p c)))
      (k0_pay2 (F := Ideal) x0 x1 x2 x3 x4 x5 x6 (ix2 p c)) = _
  rw [pay2_apply, pay3_apply, bodySoft_eq]
  unfold fused
  by_cases h : c.val = 0
  · rw [if_pos h, if_pos h, select_one]
  · rw [if_neg h, if_neg h, select_zero]

end Cert.KernelIdeal.BodyValue

end
-- ==== Proof.KernelArray.lean ====
/-
  The array the region leaves, as one function of the arrays it finds.

  Grid point `t` reads rows `8192·t … 8192·t + 8191` of the feature matrix and the whole of the six small
  arrays, and writes back rows `8192·t … 8192·t + 8191` of the output. By the body's value at an entry, what it
  writes at `(8192·t + p, q)` is `fused` of feature row `8192·t + p` at column `q`: block `t` of ONE function
  `whole` of the arrays. The 256 blocks cover every row (row `r` lies in block `r / 8192`), so the array ends at
  `whole`.
-/
import proofs.«110163_j2439541424397_2_alg».proof.Proof.BodyValue

set_option maxRecDepth 16384

noncomputable section

namespace Cert.KernelIdeal.KernelArray

open Cert.KernelIdeal Cert.KernelIdeal.Gen Idealize.ShloMosaic Idealize.ShloMosaic.TcCoe Idealize.ShloMosaic.ValueIdx
open Idealize.SL.Sem
open Idealize.ShloMosaic.Pipeline (Dat)
open Cert.Mlp Cert.KernelIdeal.BodyValue

variable (m : (ℓ : Loc nD τ sig) → Buf (Elt Ideal) ℓ) (c : Dev nD)

/-- The output array as one function of the arrays the region finds: entry `(r, q)` is `fused` of feature row `r`. -/
def whole : S2097152x17.Idx → EReal := fun i =>
  fused (row (V m c main_arg0) (i 0)) (V m c main_v5) (ofRow (V m c main_v0)) (V m c main_v6) (ofRow (V m c main_v1))
    (V m c main_v7) (ofRow (V m c main_v4)) (i 1)

/-- `fused` respects equality of each of its arguments. -/
theorem fused_congr {x x' : Fin 32 → EReal} {W0 W0' : FVec Ideal ⟨2, ![32, 64]⟩ .f32} {b0 b0' : FVec Ideal ⟨1, ![64]⟩ .f32}
    {W1 W1' : FVec Ideal ⟨2, ![64, 64]⟩ .f32} {b1 b1' : FVec Ideal ⟨1, ![64]⟩ .f32}
    {Wh Wh' : FVec Ideal ⟨2, ![64, 17]⟩ .f32} {bh bh' : FVec Ideal ⟨1, ![17]⟩ .f32} {q q' : Fin 17}
    (hx : x = x') (hW0 : W0 = W0') (hb0 : b0 = b0') (hW1 : W1 = W1') (hb1 : b1 = b1') (hWh : Wh = Wh') (hbh : bh = bh')
    (hq : q = q') : fused x W0 b0 W1 b1 Wh bh q = fused x' W0' b0' W1' b1' Wh' bh' q' := by
  subst hx hW0 hb0 hW1 hb1 hWh hbh hq; rfl

/-- The body's stored value at any index of the block. -/
theorem out_at (x0 : Vec Ideal S8192x32 .f32) (x1 : Vec Ideal S32x64 .bf16) (x2 : Vec Ideal S1x64 .f32)
    (x3 : Vec Ideal S64x64 .bf16) (x4 : Vec Ideal S1x64 .f32) (x5 : Vec Ideal S64x17 .bf16) (x6 : Vec Ideal S1x17 .f32)
    (j : S8192x17.Idx) :
    out0_7 (F := Ideal) x0 x1 x2 x3 x4 x5 x6 j = fused (row x0 (j 0)) x1 (ofRow x2) x3 (ofRow x4) x5 (ofRow x6) (j 1) := by
  obtain ⟨p, q, rfl⟩ : ∃ (p : Fin 8192) (q : Fin 17), j = ix2 p q := ⟨j 0, j 1, eq_ix2 j⟩
  exact out_apply x0 x1 x2 x3 x4 x5 x6 p q

/-- The printed index maps over the grid: the feature block moves with the output block down the rows, point `t`
    at block row `t`; every other block sits at the origin. -/
theorem idx_facts : ∀ t : Fin cfg0.N, win0_7.index t (0 : Fin 2) = t.val ∧ win0_7.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- WHAT POINT `t` WRITES BACK is block `t` of `whole`. -/
theorem flushed_eq (t : Fin cfg0.N) :
    (dats m 0 c).flushed 7 t = ((cfg0.win 7).blk t).view.read (Elt Ideal) (whole m c) := by
  show (cfg0.win 7).cut (grid0.coords t) ((dats m 0 c).after 7 t) = _
  rw [after0_7]
  obtain ⟨e70, e71, e00, e01, e10, e11, e20, e21, e30, e31, e40, e41, e50, e51, e60, e61⟩ := idx_facts t
  funext j
  refine (out_at (iblk m c 0 t) (iblk m c 1 t) (iblk m c 2 t) (iblk m c 3 t) (iblk m c 4 t) (iblk m c 5 t) (iblk m c 6 t) j).trans ?_
  show _ = whole m c (((cfg0.win 7).blk t).view.emb j)
  unfold whole
  refine fused_congr (funext fun k => ?_) (funext fun y => ?_) (funext fun y => ?_) (funext fun y => ?_)
    (funext fun y => ?_) (funext fun y => ?_) (funext fun y => ?_) ?_
  · show V m c main_arg0 (((cfg0.win 0).blk t).view.emb (ix2 (j 0) k)) = V m c main_arg0 (ix2 ((((cfg0.win 7).blk t).view.emb j) 0) k)
    refine congrArg (V m c main_arg0) (funext fun a => Fin.ext ?_)
    match a with
    | ⟨0, _⟩ => show win0_0.index t (0 : Fin 2) * 8192 + 1 * (j 0).val = win0_7.index t (0 : Fin 2) * 8192 + 1 * (j 0).val; omega
    | ⟨1, _⟩ => show win0_0.index t (1 : Fin 2) * 32 + 1 * k.val = k.val; omega
  · show V m c main_v5 (((cfg0.win 1).blk t).view.emb y) = V m c main_v5 y
    refine congrArg (V m c main_v5) (funext fun a => Fin.ext ?_)
    match a with
    | ⟨0, _⟩ => show win0_1.index t (0 : Fin 2) * 32 + 1 * (y 0).val = (y 0).val; omega
    | ⟨1, _⟩ => show win0_1.index t (1 : Fin 2) * 64 + 1 * (y 1).val = (y 1).val; omega
  · show V m c main_v0 (((cfg0.win 2).blk t).view.emb (ix2 (0 : Fin 1) (y 0))) = V m c main_v0 (ix2 (0 : Fin 1) (y 0))
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 64 + 1 * (y 0).val = (y 0).val; omega
  · show V m c main_v6 (((cfg0.win 3).blk t).view.emb y) = V m c main_v6 y
    refine congrArg (V m c main_v6) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · show V m c main_v1 (((cfg0.win 4).blk t).view.emb (ix2 (0 : Fin 1) (y 0))) = V m c main_v1 (ix2 (0 : Fin 1) (y 0))
    refine congrArg (V m c main_v1) (funext fun a => Fin.ext ?_)
    match a with
    | ⟨0, _⟩ => show win0_4.index t (0 : Fin 2) * 1 + 1 * 0 = 0; omega
    | ⟨1, _⟩ => show win0_4.index t (1 : Fin 2) * 64 + 1 * (y 0).val = (y 0).val; omega
  · show V m c main_v7 (((cfg0.win 5).blk t).view.emb y) = V m c main_v7 y
    refine congrArg (V m c main_v7) (funext fun a => Fin.ext ?_)
    match a with
    | ⟨0, _⟩ => show win0_5.index t (0 : Fin 2) * 64 + 1 * (y 0).val = (y 0).val; omega
    | ⟨1, _⟩ => show win0_5.index t (1 : Fin 2) * 17 + 1 * (y 1).val = (y 1).val; omega
  · show V m c main_v4 (((cfg0.win 6).blk t).view.emb (ix2 (0 : Fin 1) (y 0))) = V m c main_v4 (ix2 (0 : Fin 1) (y 0))
    refine congrArg (V m c main_v4) (funext fun a => Fin.ext ?_)
    match a with
    | ⟨0, _⟩ => show win0_6.index t (0 : Fin 2) * 1 + 1 * 0 = 0; omega
    | ⟨1, _⟩ => show win0_6.index t (1 : Fin 2) * 17 + 1 * (y 0).val = (y 0).val; omega
  · refine Fin.ext ?_
    show (j 1).val = win0_7.index t (1 : Fin 2) * 17 + 1 * (j 1).val
    omega

/-- An index of the array is in point `t`'s block iff each coordinate is in the block's range on its axis. -/
theorem mem_blk (t : Fin cfg0.N) (i : S2097152x17.Idx) :
    i ∈ ((cfg0.win 7).blk t).view.set ↔ ∀ a : Fin 2, win0_7.index t a * S8192x17.size a ≤ (i a).val
      ∧ (i a).val < win0_7.index t a * S8192x17.size a + S8192x17.size a := by
  show i ∈ ((View.whole main_v8).slice (win0_7.rect t)).set ↔ _
  rw [View.set_slice_whole, Rect.mem_set_unit]
  exact Iff.rfl

/-- Every index of the array lies in the block of the point its row falls in. -/
theorem cover (i : S2097152x17.Idx) : ∃ t : Fin cfg0.N, (cfg0.win 7).flush t = true ∧ i ∈ ((cfg0.win 7).blk t).view.set := by
  have hi0 : (i 0).val < 2097152 := (i 0).isLt
  have hi1 : (i 1).val < 17 := (i 1).isLt
  have hN : cfg0.N = 256 := N_0
  let t : Fin cfg0.N := ⟨(i 0).val / 8192, by rw [hN]; omega⟩
  obtain ⟨e70, e71, -⟩ := idx_facts t
  have ht : t.val = (i 0).val / 8192 := rfl
  refine ⟨t, flush0_7 t, ?_⟩
  rw [mem_blk]
  intro a
  match a with
  | ⟨0, _⟩ => show win0_7.index t (0 : Fin 2) * 8192 ≤ (i 0).val ∧ (i 0).val < win0_7.index t (0 : Fin 2) * 8192 + 8192; omega
  | ⟨1, _⟩ => show win0_7.index t (1 : Fin 2) * 17 ≤ (i 1).val ∧ (i 1).val < win0_7.index t (1 : Fin 2) * 17 + 17; omega

/-- THE ARRAY after the region: `whole` of the arrays the region finds. -/
theorem final : (dats m 0 c).arrAt 7 cfg0.N = whole m c :=
  (dats m 0 c).arrAt_eq_of_cover 7 (whole m c) (fun t _ => flushed_eq m c t) (cover)

end Cert.KernelIdeal.KernelArray

end
-- ==== Proof.LibConcatPair.lean ====
/-
  Two matrices joined into one, read at coordinates. Laid side by side ([a, b₁] and [a, b₂] into [a, b] along the
  columns), the joined matrix reads the left piece at a column below b₁ and the right piece, b₁ columns to the
  left, from column b₁ on; stacked ([a₁, b] on top of [a₂, b] into [a, b] along the rows), it reads the top piece
  at a row below a₁ and the bottom piece, a₁ rows up, from row a₁ on. Each is the library's two-piece lemma
  with the per-axis arithmetic discharged for rank two.
-/
import Idealize.ShloMosaic.Lib.Pipeline.Value
import Idealize.ShloMosaic.Lib.ValueIdx

namespace Cert.Lib.ConcatPair

open Idealize.ShloMosaic Idealize.ShloMosaic.ValueIdx

variable {α : Type}

/-- Side by side, at a column of the left piece. -/
theorem cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b₁) (k' : Fin b)
    (hk : k'.val = k.val) :
    concatenate ⟨2, ![a, b]⟩ 1 [⟨⟨2, ![a, b₁]⟩, x₁⟩, ⟨⟨2, ![a, b₂]⟩, x₂⟩] h (ix2 p k') = x₁ (ix2 p k) :=
  concatenate_pair_apply_left (1 : Fin 2) x₁ x₂ h (ix2 p k') rfl (ix2 p k) fun ax => by
    match ax with
    | ⟨0, _⟩ => rfl
    | ⟨1, _⟩ => exact hk.symm

/-- Side by side, at a column of the right piece. -/
theorem cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b₂) (k' : Fin b)
    (hk : k'.val = b₁ + k.val) :
    concatenate ⟨2, ![a, b]⟩ 1 [⟨⟨2, ![a, b₁]⟩, x₁⟩, ⟨⟨2, ![a, b₂]⟩, x₂⟩] h (ix2 p k') = x₂ (ix2 p k) :=
  concatenate_pair_apply_right (1 : Fin 2) x₁ x₂ h (ix2 p k') rfl rfl (ix2 p k)
    (fun ax hne => by
      match ax, hne with
      | ⟨0, _⟩, _ => rfl
      | ⟨1, _⟩, hne => exact absurd rfl hne)
    (by show k.val + b₁ = k'.val; omega)

/-- Stacked, at a row of the top piece. -/
theorem rows_top {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ 0) (k : Fin a₁) (k' : Fin a) (c : Fin b)
    (hk : k'.val = k.val) :
    concatenate ⟨2, ![a, b]⟩ 0 [⟨⟨2, ![a₁, b]⟩, x₁⟩, ⟨⟨2, ![a₂, b]⟩, x₂⟩] h (ix2 k' c) = x₁ (ix2 k c) :=
  concatenate_pair_apply_left (0 : Fin 2) x₁ x₂ h (ix2 k' c) rfl (ix2 k c) fun ax => by
    match ax with
    | ⟨0, _⟩ => exact hk.symm
    | ⟨1, _⟩ => rfl

/-- Stacked, at a row of the bottom piece. -/
theorem rows_bottom {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ 0) (k : Fin a₂) (k' : Fin a) (c : Fin b)
    (hk : k'.val = a₁ + k.val) :
    concatenate ⟨2, ![a, b]⟩ 0 [⟨⟨2, ![a₁, b]⟩, x₁⟩, ⟨⟨2, ![a₂, b]⟩, x₂⟩] h (ix2 k' c) = x₂ (ix2 k c) :=
  concatenate_pair_apply_right (0 : Fin 2) x₁ x₂ h (ix2 k' c) rfl rfl (ix2 k c)
    (fun ax hne => by
      match ax, hne with
      | ⟨0, _⟩, hne => exact absurd rfl hne
      | ⟨1, _⟩, _ => rfl)
    (by show k.val + a₁ = k'.val; omega)

end Cert.Lib.ConcatPair
-- ==== Proof.Staged.lean ====
/-
  What the region finds in the arrays its windows stage.

  Before the launch the host re-lays the arguments: the two hidden biases `[64]` become rows `[1, 64]`; the
  two head matrices are set side by side into `[64, 17]` (density weights in column 0) and the two head
  biases end to end into `[17]`, made a row `[1, 17]`; the three matrices change float format, which on the
  extended reals is the identity. Read at coordinates, each staged array is the argument it came from.
-/
import proofs.«110163_j2439541424397_2_alg».proof.Proof.Gen.KernelIdeal.Frame
import proofs.«110163_j2439541424397_2_alg».proof.Proof.LibConcatPair
import Idealize.ShloMosaic.Lib.ValueLayout

noncomputable section

namespace Cert.KernelIdeal.Staged

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The first weight matrix, format changed. -/
theorem v5_eq : (V m c main_v5 : S32x64.Idx → EReal) = m ((c : Thread nD τ).loc main_arg1) := by
  show StableHlo.after hostOps0 (fun b => m (c, b)) (Proc.devRef .tc main_v5) = _
  after_results
  rfl

/-- The second weight matrix, format changed. -/
theorem v6_eq : (V m c main_v6 : S64x64.Idx → EReal) = m ((c : Thread nD τ).loc main_arg3) := by
  show StableHlo.after hostOps0 (fun b => m (c, b)) (Proc.devRef .tc main_v6) = _
  after_results
  rfl

/-- The first bias row is the first bias with a unit axis put in front. -/
private theorem v0_term : (V m c main_v0 : S1x64.Idx → EReal)
    = shapeCast S1x64 (m ((c : Thread nD τ).loc main_arg2) : S64.Idx → EReal) shapeCasts_S64_S1x64 := by
  show StableHlo.after hostOps0 (fun b => m (c, b)) (Proc.devRef .tc main_v0) = _
  after_results
  rfl

/-- The second bias row is the second bias with a unit axis put in front. -/
private theorem v1_term : (V m c main_v1 : S1x64.Idx → EReal)
    = shapeCast S1x64 (m ((c : Thread nD τ).loc main_arg4) : S64.Idx → EReal) shapeCasts_S64_S1x64 := by
  show StableHlo.after hostOps0 (fun b => m (c, b)) (Proc.devRef .tc main_v1) = _
  after_results
  rfl

/-- The fused head matrix is the density weights and the colour weights side by side. -/
private theorem v7_term : (V m c main_v7 : S64x17.Idx → EReal)
    = concatenate S64x17 1 [⟨S64x1, (m ((c : Thread nD τ).loc main_arg5) : S64x1.Idx → EReal)⟩,
        ⟨S64x16, (m ((c : Thread nD τ).loc main_arg7) : S64x16.Idx → EReal)⟩] concatenates_S64x1_S64x16_S64x17_d1 := by
  show StableHlo.after hostOps0 (fun b => m (c, b)) (Proc.devRef .tc main_v7) = _
  after_results
  rfl

/-- The fused head bias row is the density bias and the colour bias end to end, with a unit axis put in front. -/
private theorem v4_term : (V m c main_v4 : S1x17.Idx → EReal)
    = shapeCast S1x17 (concatenate S17 0 [⟨S1, (m ((c : Thread nD τ).loc main_arg6) : S1.Idx → EReal)⟩,
        ⟨S16, (m ((c : Thread nD τ).loc main_arg8) : S16.Idx → EReal)⟩] concatenates_S1_S16_S17_d0) shapeCasts_S17_S1x17 := by
  show StableHlo.after hostOps0 (fun b => m (c, b)) (Proc.devRef .tc main_v4) = _
  after_results
  rfl

/-- The first bias as a row. -/
theorem v0_apply (k : Fin 64) : (V m c main_v0 : S1x64.Idx → EReal) (ix2 (0 : Fin 1) k) = m ((c : Thread nD τ).loc main_arg2) (ix1 k) := by
  rw [v0_term]
  exact shapeCast_a_1a_apply _ _ (0 : Fin 1) k

/-- The second bias as a row. -/
theorem v1_apply (k : Fin 64) : (V m c main_v1 : S1x64.Idx → EReal) (ix2 (0 : Fin 1) k) = m ((c : Thread nD τ).loc main_arg4) (ix1 k) := by
  rw [v1_term]
  exact shapeCast_a_1a_apply _ _ (0 : Fin 1) k

/-- The fused head matrix, column 0: the density weights. -/
theorem v7_col0 (k : Fin 64) : (V m c main_v7 : S64x17.Idx → EReal) (ix2 k (0 : Fin 17)) = m ((c : Thread nD τ).loc main_arg5) (ix2 k (0 : Fin 1)) := by
  rw [v7_term]
  exact Cert.Lib.ConcatPair.cols_left _ _ _ k (0 : Fin 1) (0 : Fin 17) rfl

/-- The fused head matrix, column `1 + j`: the colour weights' column `j`. -/
theorem v7_cols (k : Fin 64) (j : Fin 16) (j' : Fin 17) (hj : j'.val = 1 + j.val) :
    (V m c main_v7 : S64x17.Idx → EReal) (ix2 k j') = m ((c : Thread nD τ).loc main_arg7) (ix2 k j) := by
  rw [v7_term]
  exact Cert.Lib.ConcatPair.cols_right _ _ _ k j j' hj

/-- The fused head bias, entry 0: the density bias. -/
theorem v4_col0 : (V m c main_v4 : S1x17.Idx → EReal) (ix2 (0 : Fin 1) (0 : Fin 17)) = m ((c : Thread nD τ).loc main_arg6) (ix1 (0 : Fin 1)) := by
  rw [v4_term]
  refine (shapeCast_a_1a_apply _ _ (0 : Fin 1) (0 : Fin 17)).trans ?_
  exact concatenate_pair_apply_left (s₁ := S1) (s₂ := S16) (0 : Fin 1) _ _ _ (ix1 (0 : Fin 17)) rfl (ix1 (0 : Fin 1)) fun ax => by
    match ax with
    | ⟨0, _⟩ => rfl

/-- The fused head bias, entry `1 + j`: the colour bias's entry `j`. -/
theorem v4_cols (j : Fin 16) (j' : Fin 17) (hj : j'.val = 1 + j.val) :
    (V m c main_v4 : S1x17.Idx → EReal) (ix2 (0 : Fin 1) j') = m ((c : Thread nD τ).loc main_arg8) (ix1 j) := by
  rw [v4_term]
  refine (shapeCast_a_1a_apply _ _ (0 : Fin 1) j').trans ?_
  exact concatenate_pair_apply_right (s₁ := S1) (s₂ := S16) (0 : Fin 1) _ _ _ (ix1 j') rfl rfl (ix1 j)
    (fun ax hne => by
      match ax, hne with
      | ⟨0, _⟩, hne => exact absurd rfl hne)
    (by show j.val + 1 = j'.val; omega)

end Cert.KernelIdeal.Staged

end
-- ==== Proof.Results.lean ====
/-
  The two results, read off the array the region leaves.

  After the region the host cuts the `[2097152, 17]` array in two: column 0, with its unit axis dropped, is the
  density; columns 1–16 are the colour features. Read at coordinates, the density at `r` is the array at
  `(r, 0)` and the colour feature at `(r, j)` is the array at `(r, 1 + j)`.
-/
import proofs.«110163_j2439541424397_2_alg».proof.Proof.Gen.KernelIdeal.Frame
import Idealize.ShloMosaic.Lib.ValueLayout

noncomputable section

namespace Cert.KernelIdeal.Results

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The array the region leaves: what the proof data computes for the output window. -/
abbrev left : S2097152x17.Idx → EReal := (dats m 0 c).arrAt 7 cfg0.N

/-- The colour result is the left array cut along its columns from column 1. -/
private theorem v11_term : (Pipeline.afterTail₀ cfgs (dats m) 0 (V0 m) [hostOps1] c main_v11 : S2097152x16.Idx → EReal)
    = extractStridedSlice S2097152x16 ![0, 1] (left m c) slices_S2097152x17_S2097152x16_0_1 := by
  unfold Pipeline.afterTail₀
  show StableHlo.after hostOps1 _ (Proc.devRef .tc main_v11) = _
  after_results
  rw [Pipeline.withArrays_arr spec0 launch0.win.arr_inj c _ _ (7 : Fin 8)]

/-- The density result is the left array's column 0 with its unit axis dropped. -/
private theorem v10_term : (Pipeline.afterTail₀ cfgs (dats m) 0 (V0 m) [hostOps1] c main_v10 : S2097152.Idx → EReal)
    = shapeCast S2097152 (extractStridedSlice S2097152x1 ![0, 0] (left m c) slices_S2097152x17_S2097152x1_0_0)
        shapeCasts_S2097152x1_S2097152 := by
  unfold Pipeline.afterTail₀
  show StableHlo.after hostOps1 _ (Proc.devRef .tc main_v10) = _
  after_results
  rw [Pipeline.withArrays_arr spec0 launch0.win.arr_inj c _ _ (7 : Fin 8)]
  rfl

/-- The density at `r` is the left array at `(r, 0)`. -/
theorem v10_apply (r : Fin 2097152) :
    (Pipeline.afterTail₀ cfgs (dats m) 0 (V0 m) [hostOps1] c main_v10 : S2097152.Idx → EReal) (ix1 r)
      = left m c (ix2 r (0 : Fin 17)) := by
  rw [v10_term]
  refine (shapeCast_apply _ _ (ix1 r) (ix2 r (0 : Fin 1)) ?_).trans ?_
  · rw [Shape.rowMajor_val_two, Shape.rowMajor_val_one]
    show r.val * 1 + 0 = r.val
    omega
  · exact slice2_axis1_apply 0 _ _ r (0 : Fin 1) (0 : Fin 17) rfl

/-- The colour feature at `(r, j)` is the left array at `(r, 1 + j)`. -/
theorem v11_apply (r : Fin 2097152) (j : Fin 16) (j' : Fin 17) (hj : j'.val = 1 + j.val) :
    (Pipeline.afterTail₀ cfgs (dats m) 0 (V0 m) [hostOps1] c main_v11 : S2097152x16.Idx → EReal) (ix2 r j)
      = left m c (ix2 r j') := by
  rw [v11_term]
  exact slice2_axis1_apply 1 _ _ r j j' hj

end Cert.KernelIdeal.Results

end
-- ==== Proof.KernelRun.lean ====
/-
  The kernel's run, with its two results named.

  The frame run ends with the output array at `whole` of the staged arrays, and the two host cuts after the region
  read it at `(r, 0)` and at `(r, 1 + j)`. Column 0 of the fused head matrix and entry 0 of the fused bias are the
  density head's weights and bias, columns and entries `1 + j` the colour head's; so the first result is the
  specification's density and the second its colour features, of the arguments as launched.
-/
import proofs.«110163_j2439541424397_2_alg».proof.Proof.KernelArray
import proofs.«110163_j2439541424397_2_alg».proof.Proof.Staged
import proofs.«110163_j2439541424397_2_alg».proof.Proof.Results

set_option maxRecDepth 16384

noncomputable section

open scoped BigOperators

namespace Cert.KernelIdeal.KernelRun

open Cert.KernelIdeal Cert.KernelIdeal.Gen Idealize.ShloMosaic Idealize.ShloMosaic.TcCoe Idealize.ShloMosaic.ValueIdx
open Idealize.SL.Sem Cert.Mlp

variable (m : (ℓ : Loc nD τ sig) → Buf (Elt Ideal) ℓ) (ρ : Dev nD → PrngReg) (c : Dev nD)

/-- A head read out of the fused matrix: equal weights in the column read and equal bias in the entry read give
    equal outputs. -/
theorem dense_col {C C' : Nat} (h : Fin 64 → EReal) (W : FVec Ideal ⟨2, ![64, C]⟩ .f32) (b : FVec Ideal ⟨1, ![C]⟩ .f32)
    (W' : FVec Ideal ⟨2, ![64, C']⟩ .f32) (b' : FVec Ideal ⟨1, ![C']⟩ .f32) (q : Fin C) (q' : Fin C')
    (hW : ∀ k : Fin 64, W (ix2 k q) = W' (ix2 k q')) (hb : b (ix1 q) = b' (ix1 q')) :
    dense h W b q = dense h W' b' q' := by
  unfold dense
  rw [hb]
  exact congrArg (· + b' (ix1 q')) (Finset.sum_congr rfl fun k _ => by rw [hW k])

/-- A bias row the host made from a vector spreads that vector. -/
theorem ofRow_eq {C : Nat} (b : FVec Ideal ⟨2, ![1, C]⟩ .f32) (v : FVec Ideal ⟨1, ![C]⟩ .f32)
    (h : ∀ k : Fin C, b (ix2 (0 : Fin 1) k) = v (ix1 k)) : ofRow b = v := by
  funext i
  show b (ix2 (0 : Fin 1) (i 0)) = v i
  exact (h (i 0)).trans (congrArg v (eq_ix1 i).symm)

/-- Column 0 of the fused row goes through the shifted `softplus`. -/
theorem fused_zero (x : Fin 32 → EReal) (W0 : FVec Ideal ⟨2, ![32, 64]⟩ .f32) (b0 : FVec Ideal ⟨1, ![64]⟩ .f32)
    (W1 : FVec Ideal ⟨2, ![64, 64]⟩ .f32) (b1 : FVec Ideal ⟨1, ![64]⟩ .f32)
    (Wh : FVec Ideal ⟨2, ![64, 17]⟩ .f32) (bh : FVec Ideal ⟨1, ![17]⟩ .f32) :
    fused x W0 b0 W1 b1 Wh bh (0 : Fin 17) = softplus (dense (hidden x W0 b0 W1 b1) Wh bh (0 : Fin 17) - one) := by
  unfold fused
  exact if_pos rfl

/-- Every other column is the head's output as it is. -/
theorem fused_of_ne (x : Fin 32 → EReal) (W0 : FVec Ideal ⟨2, ![32, 64]⟩ .f32) (b0 : FVec Ideal ⟨1, ![64]⟩ .f32)
    (W1 : FVec Ideal ⟨2, ![64, 64]⟩ .f32) (b1 : FVec Ideal ⟨1, ![64]⟩ .f32)
    (Wh : FVec Ideal ⟨2, ![64, 17]⟩ .f32) (bh : FVec Ideal ⟨1, ![17]⟩ .f32) (q : Fin 17) (hq : q.val ≠ 0) :
    fused x W0 b0 W1 b1 Wh bh q = dense (hidden x W0 b0 W1 b1) Wh bh q := by
  unfold fused
  exact if_neg hq

/-- The hidden activations of row `r`, from the staged arrays, are those from the arguments. -/
theorem hidden_staged (r : Fin 2097152) :
    hidden (row (V m c main_arg0) r) (V m c main_v5) (ofRow (V m c main_v0)) (V m c main_v6) (ofRow (V m c main_v1))
      = hidden (row (m ((c : Thread nD τ).loc main_arg0)) r) (m ((c : Thread nD τ).loc main_arg1))
          (m ((c : Thread nD τ).loc main_arg2)) (m ((c : Thread nD τ).loc main_arg3)) (m ((c : Thread nD τ).loc main_arg4)) := by
  rw [V_main_arg0, Staged.v5_eq, Staged.v6_eq, ofRow_eq _ _ (Staged.v0_apply m c), ofRow_eq _ _ (Staged.v1_apply m c)]

/-- The first result: the density. -/
theorem sigma_eq :
    (Pipeline.afterTail₀ cfgs (dats m) 0 (V0 m) [hostOps1] c main_v10 : S2097152.Idx → EReal)
      = sigma (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  obtain ⟨r, rfl⟩ : ∃ r : Fin 2097152, i = ix1 r := ⟨i 0, eq_ix1 i⟩
  rw [Results.v10_apply]
  show (dats m 0 c).arrAt 7 cfg0.N (ix2 r (0 : Fin 17)) = _
  rw [KernelArray.final]
  show fused (row (V m c main_arg0) r) (V m c main_v5) (ofRow (V m c main_v0)) (V m c main_v6) (ofRow (V m c main_v1))
      (V m c main_v7) (ofRow (V m c main_v4)) (0 : Fin 17)
    = softplus (dense (hidden (row (m ((c : Thread nD τ).loc main_arg0)) r) (m ((c : Thread nD τ).loc main_arg1))
        (m ((c : Thread nD τ).loc main_arg2)) (m ((c : Thread nD τ).loc main_arg3)) (m ((c : Thread nD τ).loc main_arg4)))
        (m ((c : Thread nD τ).loc main_arg5)) (m ((c : Thread nD τ).loc main_arg6)) (0 : Fin 1) - one)
  rw [fused_zero, hidden_staged]
  exact congrArg (fun z => softplus (z - one)) (dense_col _ _ _ _ _ (0 : Fin 17) (0 : Fin 1)
    (fun k => Staged.v7_col0 m c k) (Staged.v4_col0 m c))

/-- The second result: the colour features. -/
theorem rgb_eq :
    (Pipeline.afterTail₀ cfgs (dats m) 0 (V0 m) [hostOps1] c main_v11 : S2097152x16.Idx → EReal)
      = rgb (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7))
          (m ((c : Thread nD τ).loc main_arg8)) := by
  funext i
  obtain ⟨r, j, rfl⟩ : ∃ (r : Fin 2097152) (j : Fin 16), i = ix2 r j := ⟨i 0, i 1, eq_ix2 i⟩
  have hj : (⟨1 + j.val, by omega⟩ : Fin 17).val = 1 + j.val := rfl
  rw [Results.v11_apply m c r j ⟨1 + j.val, by omega⟩ hj]
  show (dats m 0 c).arrAt 7 cfg0.N (ix2 r (⟨1 + j.val, by omega⟩ : Fin 17)) = _
  rw [KernelArray.final]
  show fused (row (V m c main_arg0) r) (V m c main_v5) (ofRow (V m c main_v0)) (V m c main_v6) (ofRow (V m c main_v1))
      (V m c main_v7) (ofRow (V m c main_v4)) (⟨1 + j.val, by omega⟩ : Fin 17)
    = dense (hidden (row (m ((c : Thread nD τ).loc main_arg0)) r) (m ((c : Thread nD τ).loc main_arg1))
        (m ((c : Thread nD τ).loc main_arg2)) (m ((c : Thread nD τ).loc main_arg3)) (m ((c : Thread nD τ).loc main_arg4)))
        (m ((c : Thread nD τ).loc main_arg7)) (m ((c : Thread nD τ).loc main_arg8)) j
  rw [fused_of_ne _ _ _ _ _ _ _ _ (by show 1 + j.val ≠ 0; omega), hidden_staged]
  exact dense_col _ _ _ _ _ (⟨1 + j.val, by omega⟩ : Fin 17) j
    (fun k => Staged.v7_cols m c k j ⟨1 + j.val, by omega⟩ hj) (Staged.v4_cols m c j ⟨1 + j.val, by omega⟩ hj)

/-- THE RUN: every weakly fair execution of the kernel's program terminates with the two results at the
    specification's density and colour features of the arguments as launched, the arguments unchanged. -/
theorem run : θ_run (defs (F := Ideal)) (onTc (τ := τ) (main (F := Ideal))) ⟨m, fun _ => 0, ρ⟩ (fun r => ∀ c : Dev nD,
      r.2.mem ((c.tc : Thread nD τ).loc main_v10) = sigma (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c.tc : Thread nD τ).loc main_v11) = rgb (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v10 (Pipeline.mem_restRefs_of main_v10 (by decide) (by decide))).trans (sigma_eq m c),
      ((h c).2 main_v11 (Pipeline.mem_restRefs_of main_v11 (by decide) (by decide))).trans (rgb_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KernelRun

end
-- ==== Proof.RefSpec.lean ====
/-
  The reference program computes the network of `Spec.lean`.

  Its run ends with the density at `val_main_v17` and the colour features at `val_main_v21` of the argument
  arrays (the generated stage functions). Read at an index, each is the specification's function of the
  same arrays: a host product is the sum over the shared axis, the biases are spread over the rows, the
  rectifier and `softplus` are applied entry by entry.
-/
import proofs.«110163_j2439541424397_2_alg».proof.Proof.Gen.ReferenceIdeal.Read
import proofs.«110163_j2439541424397_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- An entry of the first rectified layer: the rectifier of the dense layer on the entry's row. -/
private theorem layer1_at (x0 : (⟨S2097152x32, .f32⟩ : BufTy).Contents (Elt Ideal)) (x1 : (⟨S32x64, .f32⟩ : BufTy).Contents (Elt Ideal))
    (x2 : (⟨S64, .f32⟩ : BufTy).Contents (Elt Ideal)) (r : Fin 2097152) (c : Fin 64) :
    val_main_v4 (F := Ideal) x0 x1 x2 (ix2 r c) = Cert.Mlp.relu (Cert.Mlp.dense (Cert.Mlp.row x0 r) x1 x2 c) := by
  have e1 : ∀ k : Fin 32, lidx_main_v0 (ix2 r c) k = ix2 r k := fun k => funext fun a => Fin.ext (by
    match a with | ⟨0, _⟩ => rfl | ⟨1, _⟩ => rfl)
  have e2 : ∀ k : Fin 32, ridx_main_v0 (ix2 r c) k = ix2 k c := fun k => funext fun a => Fin.ext (by
    match a with | ⟨0, _⟩ => rfl | ⟨1, _⟩ => rfl)
  have e3 : idx_main_v1 (idx_main_v2 (ix2 r c)) = ix1 c := funext fun a => Fin.ext (by
    match a with | ⟨0, _⟩ => rfl)
  rw [val_main_v4_apply, val_main_v3_apply, val_main_v0_apply, val_main_v2_apply, val_main_v1_apply,
    val_main_call0_v0_apply, val_main_call0_cst_apply]
  simp only [e1, e2, e3, Ideal.addf_def, Ideal.maximumf_def, Ideal.ofBits_def]
  unfold Cert.Mlp.relu Cert.Mlp.dense Cert.Mlp.row
  rfl

/-- An entry of the second rectified layer: the hidden activation of the entry's row. -/
private theorem layer2_at (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (r : Fin 2097152) (c : Fin 64) :
    val_main_v9 (F := Ideal) x0 x1 x2 x3 x4 (ix2 r c) = Cert.Mlp.hidden (Cert.Mlp.row x0 r) x1 x2 x3 x4 c := by
  have e1 : ∀ k : Fin 64, lidx_main_v5 (ix2 r c) k = ix2 r k := fun k => funext fun a => Fin.ext (by
    match a with | ⟨0, _⟩ => rfl | ⟨1, _⟩ => rfl)
  have e2 : ∀ k : Fin 64, ridx_main_v5 (ix2 r c) k = ix2 k c := fun k => funext fun a => Fin.ext (by
    match a with | ⟨0, _⟩ => rfl | ⟨1, _⟩ => rfl)
  have e3 : idx_main_v6 (idx_main_v7 (ix2 r c)) = ix1 c := funext fun a => Fin.ext (by
    match a with | ⟨0, _⟩ => rfl)
  rw [val_main_v9_apply, val_main_v8_apply, val_main_v5_apply, val_main_v7_apply, val_main_v6_apply,
    val_main_call1_v0_apply, val_main_call1_cst_apply]
  simp only [e1, e2, e3, layer1_at, Ideal.addf_def, Ideal.maximumf_def, Ideal.ofBits_def]
  unfold Cert.Mlp.hidden
  rfl

/-- The reference's first result is the density head. -/
theorem sigma_eq (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) :
    val_main_v17 (F := Ideal) x0 x1 x2 x3 x4 x5 x6 = Cert.Mlp.sigma x0 x1 x2 x3 x4 x5 x6 := by
  funext i
  obtain ⟨p, rfl⟩ : ∃ p : Fin 2097152, i = ix1 p := ⟨i 0, eq_ix1 i⟩
  have e1 : ∀ k : Fin 64, lidx_main_v10 (idx_main_v14 (ix1 p)) k = ix2 p k := fun k => funext fun a => Fin.ext (by
    match a with | ⟨0, _⟩ => exact Nat.div_one _ | ⟨1, _⟩ => rfl)
  have e2 : ∀ k : Fin 64, ridx_main_v10 (idx_main_v14 (ix1 p)) k = ix2 k (0 : Fin 1) := fun k => funext fun a => Fin.ext (by
    match a with | ⟨0, _⟩ => rfl | ⟨1, _⟩ => rfl)
  have e3 : idx_main_v11 (idx_main_v12 (idx_main_v14 (ix1 p))) = ix1 (0 : Fin 1) := funext fun a => Fin.ext (by
    match a with | ⟨0, _⟩ => rfl)
  simp only [val_main_v17_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_v16_apply, val_main_v14_apply, val_main_v13_apply,
    val_main_v10_apply, val_main_v12_apply, val_main_v11_apply, val_main_v15_apply, val_main_cst_apply,
    val_main_call2_v0_apply, val_main_call2_v2_apply, val_main_call2_v5_apply, val_main_call2_cst_apply]
  simp only [e1, e2, e3, layer2_at, Ideal.addf_def, Ideal.subf_def, Ideal.maximumf_def, Ideal.hostNegf_def,
    Ideal.negf_def, Ideal.hostAbsf_def, Ideal.hostUnary_exp_def, Ideal.hostUnary_log1p_def, Ideal.ofBits_def]
  unfold Cert.Mlp.sigma Cert.Mlp.softplus Cert.Mlp.dense
  rfl

/-- The reference's second result is the colour head. -/
theorem rgb_eq (x0 : (⟨S2097152x32, .f32⟩ : BufTy).Contents (Elt Ideal)) (x1 : (⟨S32x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x7 : (⟨S64x16, .f32⟩ : BufTy).Contents (Elt Ideal))
    (x8 : (⟨S16, .f32⟩ : BufTy).Contents (Elt Ideal)) :
    val_main_v21 (F := Ideal) x0 x1 x2 x3 x4 x7 x8 = Cert.Mlp.rgb x0 x1 x2 x3 x4 x7 x8 := by
  funext i
  obtain ⟨p, q, rfl⟩ : ∃ (p : Fin 2097152) (q : Fin 16), i = ix2 p q := ⟨i 0, i 1, eq_ix2 i⟩
  have e1 : ∀ k : Fin 64, lidx_main_v18 (ix2 p q) k = ix2 p k := fun k => funext fun a => Fin.ext (by
    match a with | ⟨0, _⟩ => rfl | ⟨1, _⟩ => rfl)
  have e2 : ∀ k : Fin 64, ridx_main_v18 (ix2 p q) k = ix2 k q := fun k => funext fun a => Fin.ext (by
    match a with | ⟨0, _⟩ => rfl | ⟨1, _⟩ => rfl)
  have e3 : idx_main_v19 (idx_main_v20 (ix2 p q)) = ix1 q := funext fun a => Fin.ext (by
    match a with | ⟨0, _⟩ => rfl)
  rw [val_main_v21_apply, val_main_v18_apply, val_main_v20_apply, val_main_v19_apply]
  simp only [e1, e2, e3, layer2_at, Ideal.addf_def]
  unfold Cert.Mlp.rgb Cert.Mlp.dense
  rfl

end Cert.ReferenceIdeal.RefValue

end
-- ==== Proof.lean ====
/-
  A two-layer rectified network with a density head and a colour head, computed by a row-blocked kernel and by
  the plain reference: equal as extended reals.

  Both programs send each feature row `x` (32 numbers) through `h = max (max (x·W0 + b0) 0 · W1 + b1) 0` and return
  `softplus (h·Ws + bs − 1)` and `h·Wr + br`. The kernel works on 256 blocks of 8192 rows, multiplies `h` by the two
  head matrices set side by side (17 columns, the density in column 0), applies the shifted `softplus` in column 0
  only, and the host cuts the 17 columns apart again. On the extended reals a change of float format is the
  identity and a product on the matrix unit from the zero accumulator is the host's product, so entry by entry
  the two programs evaluate the same expression: no law of arithmetic beyond `0 − a = −a` is used, and the
  precondition is never opened.

  `Spec.lean` states the network; `RefSpec.lean` shows the reference computes it; `BodyValue.lean`,
  `KernelArray.lean`, `Staged.lean`, `Results.lean` and `KernelRun.lean` show the kernel's program does. The three
  frames are the generated ones (the reference's is its generated run with the results dropped); the
  idealization rewrote nothing, so `preserves` is trivial.
-/
import proofs.«110163_j2439541424397_2_alg».proof.Defs
import proofs.«110163_j2439541424397_2_alg».proof.Proof.Gen.Kernel
import proofs.«110163_j2439541424397_2_alg».proof.Proof.Gen.Kernel.Skeleton
import proofs.«110163_j2439541424397_2_alg».proof.Proof.Gen.Kernel.Launch
import proofs.«110163_j2439541424397_2_alg».proof.Proof.Gen.Kernel.Points
import proofs.«110163_j2439541424397_2_alg».proof.Proof.Gen.Kernel.Frame
import proofs.«110163_j2439541424397_2_alg».proof.Proof.Gen.KernelIdeal
import proofs.«110163_j2439541424397_2_alg».proof.Proof.Gen.KernelIdeal.Skeleton
import proofs.«110163_j2439541424397_2_alg».proof.Proof.Gen.KernelIdeal.Launch
import proofs.«110163_j2439541424397_2_alg».proof.Proof.Gen.KernelIdeal.Points
import proofs.«110163_j2439541424397_2_alg».proof.Proof.Gen.KernelIdeal.Frame
import proofs.«110163_j2439541424397_2_alg».proof.Proof.Gen.ReferenceIdeal
import proofs.«110163_j2439541424397_2_alg».proof.Proof.Gen.ReferenceIdeal.Run
import proofs.«110163_j2439541424397_2_alg».proof.Proof.Gen.ReferenceIdeal.Read
import proofs.«110163_j2439541424397_2_alg».proof.Proof.Gen.Pre_finite_inputs
import proofs.«110163_j2439541424397_2_alg».proof.Proof.KernelRun
import proofs.«110163_j2439541424397_2_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both runs end at the specification's density and colour features of arguments that agree. -/
theorem algebraic : Cert.algebraic_KernelIdeal_ReferenceIdeal := by
  intro m ρ m' ρ' _ hagree
  refine ⟨_, _, Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, -, -⟩ := hagree c
    rw [Cert.ReferenceIdeal.Read.val_main_v17_eq, Cert.ReferenceIdeal.RefValue.sigma_eq, a0, a1, a2, a3, a4, a5, a6]
  · obtain ⟨a0, a1, a2, a3, a4, -, -, a7, a8⟩ := hagree c
    rw [Cert.ReferenceIdeal.Read.val_main_v21_eq, Cert.ReferenceIdeal.RefValue.rgb_eq, a0, a1, a2, a3, a4, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
